-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S128x64 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x64 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S2000x128 : Shape := ⟨2, ![2000, 128]⟩
abbrev S1x64 : Shape := ⟨2, ![1, 64]⟩
abbrev S100000x64 : Shape := ⟨2, ![100000, 64]⟩
abbrev S2000x64 : Shape := ⟨2, ![2000, 64]⟩

abbrev nBuf : Space → Nat
  | .hbm => 70
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x64, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S_, .f32⟩
  | .hbm, ⟨55, _⟩ => ⟨S1600000, .f32⟩
  | .hbm, ⟨56, _⟩ => ⟨S_, .f32⟩
  | .hbm, ⟨57, _⟩ => ⟨S100000, .f32⟩
  | .hbm, ⟨58, _⟩ => ⟨S1600000x1, .i32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S1x64, .f32⟩
  | .hbm, ⟨69, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x64, .f32⟩
  | .local _ .vmem, ⟨21, _⟩ => ⟨S1x64, .f32⟩
  | .local _ .vmem, ⟨22, _⟩ => ⟨S2000x64, .f32⟩
  | .local _ .vmem, ⟨23, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S100000x64.size a
  hwx2_3 : ∀ i : grid2.Coords, EltTy.bits .f32 = 32 ∨ (Rect.block (s := S100000x64) S2000x64.size (cc2_transform_3 i) (hinb2_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 94
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x64, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S100000x128, .f32⟩
  | .hbm, ⟨81, _⟩ => ⟨S100000x128, .f32⟩
  | .hbm, ⟨82, _⟩ => ⟨S100000x64, .f32⟩
  | .hbm, ⟨83, _⟩ => ⟨S1x64, .f32⟩
  | .hbm, ⟨84, _⟩ => ⟨S100000x64, .f32⟩
  | .hbm, ⟨85, _⟩ => ⟨S100000x64, .f32⟩
  | .hbm, ⟨86, _⟩ => ⟨S100000x64, .f32⟩
  | .hbm, ⟨87, _⟩ => ⟨S100000x64, .f32⟩
  | .hbm, ⟨88, _⟩ => ⟨S_, .f32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S100000x64, .f32⟩
  | .hbm, ⟨93, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_10 : Ref sig .tc := ⟨.hbm, 88, rfl⟩
abbrev main_v62 : Ref sig .tc := ⟨.hbm, 89, rfl⟩
abbrev main_v63 : Ref sig .tc := ⟨.hbm, 90, rfl⟩
abbrev main_cst_11 : Ref sig .tc := ⟨.hbm, 91, rfl⟩
abbrev main_v64 : Ref sig .tc := ⟨.hbm, 92, rfl⟩
abbrev main_v65 : Ref sig .tc := ⟨.hbm, 93, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KRun.lean ====
/-
  The idealized kernel's run, with its result array named.

  The program is three grid launches separated by stretches of array operations.  Its buffers' contents are followed
  boundary by boundary: `W0` at the start, `W1` after the first stretch, `W2` after the first launch (its output
  array at what the launch's write-backs leave, every other array as it was), and so on to `W6` after the third
  launch.  Every weakly fair execution terminates without a fault in a state whose result array is `W6`'s and whose
  argument arrays are the initial ones.
-/
import proofs.«144454_j34248069219261_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result array at the last boundary's contents and the arguments unchanged. -/
theorem run_out : θ_run defs (onTc (τ := τ) (main (F := F))) ⟨m, fun _ => 0, ρ⟩ (fun r => ∀ c : Dev nD,
      r.2.mem ((c.tc : Thread nD τ).loc main_v47) = W6 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v47 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.Run

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.Spec.lean ====
/-
  The two dense layers of the network, entry by entry on the extended reals.

  A message-passing layer takes, for each node (a row), the mean of its neighbours' features `a` and the node's own
  features `x`, and returns `max ((a · wl + x · wr) + b, 0)`; the read-out layer returns the logistic function of
  `h · w + b`.  Both are written for any number `R` of rows: an entry in row `p` depends on row `p` of the row
  operands only, so a block of consecutive rows of the result is the same layer applied to those rows
  (`layerAt_rows`, `outAt_rows`) — which is how a launch that handles 2000 rows per grid point computes the layer
  of all 100000 rows.
-/
import Idealize.ShloMosaic.PureOps.Ideal
import Idealize.ShloMosaic.Lib.ValueIdx

noncomputable section

open scoped BigOperators

namespace Sage

open Idealize.ShloMosaic Idealize.ShloMosaic.ValueIdx

/-- Entry `(p, q)` of a message-passing layer: `max ((∑ₖ a[p,k]·wl[k,q] + ∑ₖ x[p,k]·wr[k,q]) + b[q], 0)`. -/
def layerAt {R : Nat} (a x : (⟨2, ![R, 128]⟩ : Shape).Idx → EReal) (wl wr : (⟨2, ![128, 128]⟩ : Shape).Idx → EReal)
    (b : Fin 128 → EReal) (p : Fin R) (q : Fin 128) : EReal :=
  max (((∑ k : Fin 128, a (ix2 p k) * wl (ix2 k q)) + (∑ k : Fin 128, x (ix2 p k) * wr (ix2 k q))) + b q) 0

/-- The layer as an array of `R` rows. -/
def layer {R : Nat} (a x : (⟨2, ![R, 128]⟩ : Shape).Idx → EReal) (wl wr : (⟨2, ![128, 128]⟩ : Shape).Idx → EReal)
    (b : Fin 128 → EReal) : (⟨2, ![R, 128]⟩ : Shape).Idx → EReal :=
  fun i => layerAt a x wl wr b (i 0) (i 1)

/-- Entry `(p, q)` of the read-out layer: the logistic function of `∑ₖ h[p,k]·w[k,q] + b[q]`. -/
def outAt {R : Nat} (h : (⟨2, ![R, 128]⟩ : Shape).Idx → EReal) (w : (⟨2, ![128, 64]⟩ : Shape).Idx → EReal)
    (b : Fin 64 → EReal) (p : Fin R) (q : Fin 64) : EReal :=
  Ideal.logistic ((∑ k : Fin 128, h (ix2 p k) * w (ix2 k q)) + b q)

/-- The read-out layer as an array of `R` rows. -/
def out {R : Nat} (h : (⟨2, ![R, 128]⟩ : Shape).Idx → EReal) (w : (⟨2, ![128, 64]⟩ : Shape).Idx → EReal)
    (b : Fin 64 → EReal) : (⟨2, ![R, 64]⟩ : Shape).Idx → EReal :=
  fun i => outAt h w b (i 0) (i 1)

/-- A layer's entry `(p', q')` over one family of operands is its entry `(p, q)` over another when row `p'` of the first
    row operands is row `p` of the second, and column `q'` of the first weights and bias is column `q` of the second. -/
theorem layerAt_rows {R R' : Nat} (a x : (⟨2, ![R, 128]⟩ : Shape).Idx → EReal) (a' x' : (⟨2, ![R', 128]⟩ : Shape).Idx → EReal)
    (wl wr wl' wr' : (⟨2, ![128, 128]⟩ : Shape).Idx → EReal) (b b' : Fin 128 → EReal) (p : Fin R) (p' : Fin R') (q q' : Fin 128)
    (ha : ∀ k, a' (ix2 p' k) = a (ix2 p k)) (hx : ∀ k, x' (ix2 p' k) = x (ix2 p k))
    (hwl : ∀ k, wl' (ix2 k q') = wl (ix2 k q)) (hwr : ∀ k, wr' (ix2 k q') = wr (ix2 k q)) (hb : b' q' = b q) :
    layerAt a' x' wl' wr' b' p' q' = layerAt a x wl wr b p q := by
  unfold layerAt
  simp only [ha, hx, hwl, hwr, hb]

/-- The same for the read-out layer. -/
theorem outAt_rows {R R' : Nat} (h : (⟨2, ![R, 128]⟩ : Shape).Idx → EReal) (h' : (⟨2, ![R', 128]⟩ : Shape).Idx → EReal)
    (w w' : (⟨2, ![128, 64]⟩ : Shape).Idx → EReal) (b b' : Fin 64 → EReal) (p : Fin R) (p' : Fin R') (q q' : Fin 64)
    (hh : ∀ k, h' (ix2 p' k) = h (ix2 p k)) (hw : ∀ k, w' (ix2 k q') = w (ix2 k q)) (hb : b' q' = b q) :
    outAt h' w' b' p' q' = outAt h w b p q := by
  unfold outAt
  simp only [hh, hw, hb]

end Sage

end
-- ==== Proof.KBody.lean ====
/-
  What each kernel body stores, as the network's layer of the blocks it loaded.

  A body loads a block of 2000 rows of each row operand and the whole of each weight and bias, and stores one block
  of 2000 rows.  On the extended reals a change of float format is the identity and a matrix product into a zero
  accumulator is the plain sum of products, so the first two bodies store `Sage.layer` of their blocks and the third
  `Sage.out` of its blocks, the bias read from its one row.
-/
import proofs.«144454_j34248069219261_1_alg».proof.Proof.Gen.KernelIdeal.Skeleton
import proofs.«144454_j34248069219261_1_alg».proof.Proof.LibMatmulNN
import proofs.«144454_j34248069219261_1_alg».proof.Proof.Spec
import Idealize.ShloMosaic.Lib.Pipeline.Value

noncomputable section

open scoped BigOperators

namespace Cert.KernelIdeal.Body

open Cert.KernelIdeal Cert.KernelIdeal.Gen Idealize.ShloMosaic Idealize.ShloMosaic.ValueIdx

/-- A row of 128 entries repeated down `r` rows reads, at `(p, q)`, the row's entry `q`. -/
theorem row128_apply (r : Nat) (v : (⟨2, ![1, 128]⟩ : Shape).Idx → EReal) (h : (⟨2, ![1, 128]⟩ : Shape).Broadcasts ⟨2, ![r, 128]⟩)
    (p : Fin r) (q : Fin 128) : broadcastTo (⟨2, ![r, 128]⟩ : Shape) v h (ix2 p q) = v (ix2 0 q) :=
  broadcastTo_apply v h (ix2 p q) (ix2 0 q) (fun a => match a with | ⟨0, _⟩ => rfl | ⟨1, _⟩ => rfl)

/-- A row of 64 entries repeated down `r` rows reads, at `(p, q)`, the row's entry `q`. -/
theorem row64_apply (r : Nat) (v : (⟨2, ![1, 64]⟩ : Shape).Idx → EReal) (h : (⟨2, ![1, 64]⟩ : Shape).Broadcasts ⟨2, ![r, 64]⟩)
    (p : Fin r) (q : Fin 64) : broadcastTo (⟨2, ![r, 64]⟩ : Shape) v h (ix2 p q) = v (ix2 0 q) :=
  broadcastTo_apply v h (ix2 p q) (ix2 0 q) (fun a => match a with | ⟨0, _⟩ => rfl | ⟨1, _⟩ => rfl)

/-- The logistic function of a vector, read at an index. -/
theorem logistic_apply {s : Shape} {φ : FTy} (a : FVec Ideal s φ) (i : s.Idx) : logistic a i = Ideal.logistic (a i) := rfl

/-- The first launch's body stores the layer of its blocks: `x0` the neighbour means, `x1` the nodes' own features,
    `x2` and `x4` the two weights, `x3` the bias as one row. -/
theorem pay0_eq (x0 x1 : Vec Ideal S2000x128 .f32) (x2 x4 : Vec Ideal S128x128 .f32) (x3 : Vec Ideal S1x128 .f32) :
    k0_pay1 (F := Ideal) x0 x1 x2 x4 x3 = Sage.layer (R := 2000) x0 x1 x2 x4 (fun q => x3 (ix2 0 q)) := by
  funext j
  obtain ⟨p, q, rfl⟩ : ∃ (p : Fin 2000) (q : Fin 128), j = ix2 p q := ⟨j 0, j 1, eq_ix2 j⟩
  have h1 := LibMatmulNN.matmul_zero_apply 2000 128 128 none (φ₁ := .bf16) (φ₂ := .bf16) x0 x2 p q
  have h2 := LibMatmulNN.matmul_zero_apply 2000 128 128 none (φ₁ := .bf16) (φ₂ := .bf16) x1 x4 p q
  have hb := row128_apply 2000 x3 broadcasts_S1x128_S2000x128 p q
  unfold k0_pay1
  rw [shapeCast_self, shapeCast_self]
  rw [maximumf_apply, addf_apply, addf_apply, hb, broadcast_apply, Ideal.ofBits_def, Ideal.ofBits_zero_f32]
  unfold Sage.layer Sage.layerAt
  exact congrArg₂ max (congrArg₂ (· + ·) (congrArg₂ (· + ·) h1 h2) rfl) rfl

/-- The second launch's body stores the same layer of its blocks. -/
theorem pay1_eq (x0 x1 : Vec Ideal S2000x128 .f32) (x2 x4 : Vec Ideal S128x128 .f32) (x3 : Vec Ideal S1x128 .f32) :
    k1_pay1 (F := Ideal) x0 x1 x2 x4 x3 = Sage.layer (R := 2000) x0 x1 x2 x4 (fun q => x3 (ix2 0 q)) := by
  funext j
  obtain ⟨p, q, rfl⟩ : ∃ (p : Fin 2000) (q : Fin 128), j = ix2 p q := ⟨j 0, j 1, eq_ix2 j⟩
  have h1 := LibMatmulNN.matmul_zero_apply 2000 128 128 none (φ₁ := .bf16) (φ₂ := .bf16) x0 x2 p q
  have h2 := LibMatmulNN.matmul_zero_apply 2000 128 128 none (φ₁ := .bf16) (φ₂ := .bf16) x1 x4 p q
  have hb := row128_apply 2000 x3 broadcasts_S1x128_S2000x128 p q
  unfold k1_pay1
  rw [shapeCast_self, shapeCast_self, shapeCast_self]
  rw [maximumf_apply, addf_apply, addf_apply, hb, broadcast_apply, Ideal.ofBits_def, Ideal.ofBits_zero_f32]
  unfold Sage.layer Sage.layerAt
  exact congrArg₂ max (congrArg₂ (· + ·) (congrArg₂ (· + ·) h1 h2) rfl) rfl

/-- The third launch's body stores the read-out layer of its blocks: `x0` the hidden features, `x1` the weight,
    `x2` the bias as one row. -/
theorem pay2_eq (x0 : Vec Ideal S2000x128 .f32) (x1 : Vec Ideal S128x64 .f32) (x2 : Vec Ideal S1x64 .f32) :
    k2_pay1 (F := Ideal) x0 x1 x2 = Sage.out (R := 2000) x0 x1 (fun q => x2 (ix2 0 q)) := by
  funext j
  obtain ⟨p, q, rfl⟩ : ∃ (p : Fin 2000) (q : Fin 64), j = ix2 p q := ⟨j 0, j 1, eq_ix2 j⟩
  have h1 := LibMatmulNN.matmul_zero_apply 2000 128 64 none (φ₁ := .bf16) (φ₂ := .bf16) x0 x1 p q
  have hb := row64_apply 2000 x2 broadcasts_S1x64_S2000x64 p q
  unfold k2_pay1
  rw [shapeCast_self, shapeCast_self]
  rw [logistic_apply, addf_apply, hb]
  unfold Sage.out Sage.outAt
  exact congrArg Ideal.logistic (congrArg₂ (· + ·) h1 rfl)

end Cert.KernelIdeal.Body

end
-- ==== Proof.KBlocks.lean ====
/-
  From blocks to arrays: after each of the three launches, its output array is the network's layer of the WHOLE
  arrays the launch found.

  A launch walks 50 grid points; at point `t` it fetches rows `2000 t … 2000 t + 1999` of each row operand and the
  whole of each weight and bias, runs the body, and writes the body's block back to the same rows of the output.
  The body's block is the layer of the fetched blocks (the payload lemmas), an entry of the layer depends on its own
  row of the row operands only, so the written block is those rows of the layer of the whole arrays; the 50 blocks
  cover the 100000 rows, so the output array is that layer.  Stated at any contents `V` of the buffers at the
  launch's entry.
-/
import proofs.«144454_j34248069219261_1_alg».proof.Proof.Gen.KernelIdeal.Frame
import proofs.«144454_j34248069219261_1_alg».proof.Proof.KBody
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The offset of every access of a body: the origin. -/
theorem hz : (![0, 0] : Fin 2 → Nat) = fun _ => 0 := funext fun a => by fin_cases a <;> rfl

/-! ## Launch 1: a message-passing layer, 2000 rows per grid point -/

/-- Where each window's block sits at grid point `t`: the row operands' and the output's block is block `t` of
    rows, the weights' and the bias's block is the whole array. Decided over the 50 points. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The layer of the whole arrays the launch finds. -/
def G0 (c : Dev nD) : S100000x128.Idx → EReal :=
  Sage.layer (R := 100000) (V c main_v22) (V c main_arg0) (V c main_arg2) (V c main_arg4) (fun q => V c main_v23 (ix2 0 q))

/-- What grid point `t` writes back is rows `2000 t … 2000 t + 1999` of that layer: an entry of the layer depends on
    its own row of the row operands only, and that row of the block is that row of the array. -/
theorem flushed0 (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  rw [Body.pay0_eq]
  obtain ⟨e00, e01, e10, e11, e20, e21, e30, e31, e40, e41, e50, e51⟩ := idx0 t
  funext j
  show Sage.layerAt (iblk0 V c 0 t) (iblk0 V c 1 t) (iblk0 V c 2 t) (iblk0 V c 4 t) (fun q => iblk0 V c 3 t (ix2 0 q)) (j 0) (j 1)
     = Sage.layerAt (V c main_v22) (V c main_arg0) (V c main_arg2) (V c main_arg4) (fun q => V c main_v23 (ix2 0 q)) ((((cfg0.win 5).blk t).view.emb j) 0) ((((cfg0.win 5).blk t).view.emb j) 1)
  have hj0 : (j 0).val < 2000 := (j 0).isLt
  have hj1 : (j 1).val < 128 := (j 1).isLt
  refine Sage.layerAt_rows _ _ _ _ _ _ _ _ _ _ _ _ _ _ ?_ ?_ ?_ ?_ ?_
  · intro k
    show V c main_v22 (((cfg0.win 0).blk t).view.emb (ix2 (j 0) k)) = V c main_v22 (ix2 ((((cfg0.win 5).blk t).view.emb j) 0) k)
    refine congrArg (V c main_v22) ?_
    funext a; apply Fin.ext
    match a with
    | ⟨0, _⟩ => show win0_0.index t (0 : Fin 2) * 2000 + 1 * (j 0).val = win0_5.index t (0 : Fin 2) * 2000 + 1 * (j 0).val; omega
    | ⟨1, _⟩ => show win0_0.index t (1 : Fin 2) * 128 + 1 * k.val = k.val; omega
  · intro k
    show V c main_arg0 (((cfg0.win 1).blk t).view.emb (ix2 (j 0) k)) = V c main_arg0 (ix2 ((((cfg0.win 5).blk t).view.emb j) 0) k)
    refine congrArg (V c main_arg0) ?_
    funext a; apply Fin.ext
    match a with
    | ⟨0, _⟩ => show win0_1.index t (0 : Fin 2) * 2000 + 1 * (j 0).val = win0_5.index t (0 : Fin 2) * 2000 + 1 * (j 0).val; omega
    | ⟨1, _⟩ => show win0_1.index t (1 : Fin 2) * 128 + 1 * k.val = k.val; omega
  · intro k
    show V c main_arg2 (((cfg0.win 2).blk t).view.emb (ix2 k (j 1))) = V c main_arg2 (ix2 k ((((cfg0.win 5).blk t).view.emb j) 1))
    refine congrArg (V c main_arg2) ?_
    funext a; apply Fin.ext
    match a with
    | ⟨0, _⟩ => show win0_2.index t (0 : Fin 2) * 128 + 1 * k.val = k.val; omega
    | ⟨1, _⟩ => show win0_2.index t (1 : Fin 2) * 128 + 1 * (j 1).val = win0_5.index t (1 : Fin 2) * 128 + 1 * (j 1).val; omega
  · intro k
    show V c main_arg4 (((cfg0.win 4).blk t).view.emb (ix2 k (j 1))) = V c main_arg4 (ix2 k ((((cfg0.win 5).blk t).view.emb j) 1))
    refine congrArg (V c main_arg4) ?_
    funext a; apply Fin.ext
    match a with
    | ⟨0, _⟩ => show win0_4.index t (0 : Fin 2) * 128 + 1 * k.val = k.val; omega
    | ⟨1, _⟩ => show win0_4.index t (1 : Fin 2) * 128 + 1 * (j 1).val = win0_5.index t (1 : Fin 2) * 128 + 1 * (j 1).val; omega
  · show V c main_v23 (((cfg0.win 3).blk t).view.emb (ix2 0 (j 1))) = V c main_v23 (ix2 0 ((((cfg0.win 5).blk t).view.emb j) 1))
    refine congrArg (V c main_v23) ?_
    funext a; apply Fin.ext
    match a with
    | ⟨0, _⟩ => show win0_3.index t (0 : Fin 2) * 1 + 1 * 0 = 0; omega
    | ⟨1, _⟩ => show win0_3.index t (1 : Fin 2) * 128 + 1 * (j 1).val = win0_5.index t (1 : Fin 2) * 128 + 1 * (j 1).val; omega

/-- An index of the output array is in point `t`'s block iff each coordinate is in the block's range on its axis. -/
theorem mem_blk0 (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v24).slice (win0_5.rect t)).set ↔ _
  rw [View.set_slice_whole, Rect.mem_set_unit]
  exact Iff.rfl

/-- Every row is in some point's block: row `n` in the block of point `n / 2000`. -/
theorem cover0 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : (i 0).val / 2000 < cfg0.N := by rw [show cfg0.N = 50 from N_0]; omega
  obtain ⟨e00, e01, e10, e11, e20, e21, e30, e31, e40, e41, e50, e51⟩ := idx0 ⟨(i 0).val / 2000, hN⟩
  refine ⟨⟨(i 0).val / 2000, hN⟩, flush0_5 _, ?_⟩
  rw [mem_blk0]
  intro a
  match a with
  | ⟨0, _⟩ => show win0_5.index ⟨(i 0).val / 2000, hN⟩ (0 : Fin 2) * 2000 ≤ (i 0).val ∧ (i 0).val < win0_5.index ⟨(i 0).val / 2000, hN⟩ (0 : Fin 2) * 2000 + 2000; rw [e50]; show (i 0).val / 2000 * 2000 ≤ _ ∧ _ < (i 0).val / 2000 * 2000 + 2000; omega
  | ⟨1, _⟩ => show win0_5.index ⟨(i 0).val / 2000, hN⟩ (1 : Fin 2) * 128 ≤ (i 1).val ∧ (i 1).val < win0_5.index ⟨(i 0).val / 2000, hN⟩ (1 : Fin 2) * 128 + 128; omega

/-- After the launch its output array is the layer of the arrays it found. -/
theorem final0 (c : Dev nD) : (dat0 V c).arrAt 5 cfg0.N = G0 V c :=
  (dat0 V c).arrAt_eq_of_cover 5 (G0 V c) (fun t _ => flushed0 V c t) cover0

/-! ## Launch 2: a message-passing layer, 2000 rows per grid point -/

/-- Where each window's block sits at grid point `t`: the row operands' and the output's block is block `t` of
    rows, the weights' and the bias's block is the whole array. Decided over the 50 points. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The layer of the whole arrays the launch finds. -/
def G1 (c : Dev nD) : S100000x128.Idx → EReal :=
  Sage.layer (R := 100000) (V c main_v43) (V c main_v24) (V c main_arg5) (V c main_arg7) (fun q => V c main_v44 (ix2 0 q))

/-- What grid point `t` writes back is rows `2000 t … 2000 t + 1999` of that layer: an entry of the layer depends on
    its own row of the row operands only, and that row of the block is that row of the array. -/
theorem flushed1 (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  rw [Body.pay1_eq]
  obtain ⟨e00, e01, e10, e11, e20, e21, e30, e31, e40, e41, e50, e51⟩ := idx1 t
  funext j
  show Sage.layerAt (iblk1 V c 0 t) (iblk1 V c 1 t) (iblk1 V c 2 t) (iblk1 V c 4 t) (fun q => iblk1 V c 3 t (ix2 0 q)) (j 0) (j 1)
     = Sage.layerAt (V c main_v43) (V c main_v24) (V c main_arg5) (V c main_arg7) (fun q => V c main_v44 (ix2 0 q)) ((((cfg1.win 5).blk t).view.emb j) 0) ((((cfg1.win 5).blk t).view.emb j) 1)
  have hj0 : (j 0).val < 2000 := (j 0).isLt
  have hj1 : (j 1).val < 128 := (j 1).isLt
  refine Sage.layerAt_rows _ _ _ _ _ _ _ _ _ _ _ _ _ _ ?_ ?_ ?_ ?_ ?_
  · intro k
    show V c main_v43 (((cfg1.win 0).blk t).view.emb (ix2 (j 0) k)) = V c main_v43 (ix2 ((((cfg1.win 5).blk t).view.emb j) 0) k)
    refine congrArg (V c main_v43) ?_
    funext a; apply Fin.ext
    match a with
    | ⟨0, _⟩ => show win1_0.index t (0 : Fin 2) * 2000 + 1 * (j 0).val = win1_5.index t (0 : Fin 2) * 2000 + 1 * (j 0).val; omega
    | ⟨1, _⟩ => show win1_0.index t (1 : Fin 2) * 128 + 1 * k.val = k.val; omega
  · intro k
    show V c main_v24 (((cfg1.win 1).blk t).view.emb (ix2 (j 0) k)) = V c main_v24 (ix2 ((((cfg1.win 5).blk t).view.emb j) 0) k)
    refine congrArg (V c main_v24) ?_
    funext a; apply Fin.ext
    match a with
    | ⟨0, _⟩ => show win1_1.index t (0 : Fin 2) * 2000 + 1 * (j 0).val = win1_5.index t (0 : Fin 2) * 2000 + 1 * (j 0).val; omega
    | ⟨1, _⟩ => show win1_1.index t (1 : Fin 2) * 128 + 1 * k.val = k.val; omega
  · intro k
    show V c main_arg5 (((cfg1.win 2).blk t).view.emb (ix2 k (j 1))) = V c main_arg5 (ix2 k ((((cfg1.win 5).blk t).view.emb j) 1))
    refine congrArg (V c main_arg5) ?_
    funext a; apply Fin.ext
    match a with
    | ⟨0, _⟩ => show win1_2.index t (0 : Fin 2) * 128 + 1 * k.val = k.val; omega
    | ⟨1, _⟩ => show win1_2.index t (1 : Fin 2) * 128 + 1 * (j 1).val = win1_5.index t (1 : Fin 2) * 128 + 1 * (j 1).val; omega
  · intro k
    show V c main_arg7 (((cfg1.win 4).blk t).view.emb (ix2 k (j 1))) = V c main_arg7 (ix2 k ((((cfg1.win 5).blk t).view.emb j) 1))
    refine congrArg (V c main_arg7) ?_
    funext a; apply Fin.ext
    match a with
    | ⟨0, _⟩ => show win1_4.index t (0 : Fin 2) * 128 + 1 * k.val = k.val; omega
    | ⟨1, _⟩ => show win1_4.index t (1 : Fin 2) * 128 + 1 * (j 1).val = win1_5.index t (1 : Fin 2) * 128 + 1 * (j 1).val; omega
  · show V c main_v44 (((cfg1.win 3).blk t).view.emb (ix2 0 (j 1))) = V c main_v44 (ix2 0 ((((cfg1.win 5).blk t).view.emb j) 1))
    refine congrArg (V c main_v44) ?_
    funext a; apply Fin.ext
    match a with
    | ⟨0, _⟩ => show win1_3.index t (0 : Fin 2) * 1 + 1 * 0 = 0; omega
    | ⟨1, _⟩ => show win1_3.index t (1 : Fin 2) * 128 + 1 * (j 1).val = win1_5.index t (1 : Fin 2) * 128 + 1 * (j 1).val; omega

/-- An index of the output array is in point `t`'s block iff each coordinate is in the block's range on its axis. -/
theorem mem_blk1 (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v45).slice (win1_5.rect t)).set ↔ _
  rw [View.set_slice_whole, Rect.mem_set_unit]
  exact Iff.rfl

/-- Every row is in some point's block: row `n` in the block of point `n / 2000`. -/
theorem cover1 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : (i 0).val / 2000 < cfg1.N := by rw [show cfg1.N = 50 from N_1]; omega
  obtain ⟨e00, e01, e10, e11, e20, e21, e30, e31, e40, e41, e50, e51⟩ := idx1 ⟨(i 0).val / 2000, hN⟩
  refine ⟨⟨(i 0).val / 2000, hN⟩, flush1_5 _, ?_⟩
  rw [mem_blk1]
  intro a
  match a with
  | ⟨0, _⟩ => show win1_5.index ⟨(i 0).val / 2000, hN⟩ (0 : Fin 2) * 2000 ≤ (i 0).val ∧ (i 0).val < win1_5.index ⟨(i 0).val / 2000, hN⟩ (0 : Fin 2) * 2000 + 2000; rw [e50]; show (i 0).val / 2000 * 2000 ≤ _ ∧ _ < (i 0).val / 2000 * 2000 + 2000; omega
  | ⟨1, _⟩ => show win1_5.index ⟨(i 0).val / 2000, hN⟩ (1 : Fin 2) * 128 ≤ (i 1).val ∧ (i 1).val < win1_5.index ⟨(i 0).val / 2000, hN⟩ (1 : Fin 2) * 128 + 128; omega

/-- After the launch its output array is the layer of the arrays it found. -/
theorem final1 (c : Dev nD) : (dat1 V c).arrAt 5 cfg1.N = G1 V c :=
  (dat1 V c).arrAt_eq_of_cover 5 (G1 V c) (fun t _ => flushed1 V c t) cover1

/-! ## Launch 3: the read-out layer, 2000 rows per grid point -/

/-- Where each window's block sits at grid point `t`. Decided over the 50 points. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The read-out layer of the whole arrays the launch finds. -/
def G2 (c : Dev nD) : S100000x64.Idx → EReal :=
  Sage.out (R := 100000) (V c main_v45) (V c main_arg8) (fun q => V c main_v46 (ix2 0 q))

/-- What grid point `t` writes back is rows `2000 t … 2000 t + 1999` of that layer. -/
theorem flushed2 (c : Dev nD) (t : Fin cfg2.N) :
    (dat2 V c).flushed 3 t = ((cfg2.win 3).blk t).view.read (Elt Ideal) (G2 V c) := by
  show (cfg2.win 3).cut (grid2.coords t) ((dat2 V c).after 3 t) = _
  rw [after2_3]
  unfold out2_3
  rw [View.canon_unit_zero hz]
  simp only [View.ld_unit_zero (S := S2000x128) hz, View.ld_unit_zero (S := S128x64) hz, View.ld_unit_zero (S := S1x64) hz]
  rw [Body.pay2_eq]
  obtain ⟨e00, e01, e10, e11, e20, e21, e30, e31⟩ := idx2 t
  funext j
  show Sage.outAt (iblk2 V c 0 t) (iblk2 V c 1 t) (fun q => iblk2 V c 2 t (ix2 0 q)) (j 0) (j 1)
     = Sage.outAt (V c main_v45) (V c main_arg8) (fun q => V c main_v46 (ix2 0 q)) ((((cfg2.win 3).blk t).view.emb j) 0) ((((cfg2.win 3).blk t).view.emb j) 1)
  have hj0 : (j 0).val < 2000 := (j 0).isLt
  have hj1 : (j 1).val < 64 := (j 1).isLt
  refine Sage.outAt_rows _ _ _ _ _ _ _ _ _ _ ?_ ?_ ?_
  · intro k
    show V c main_v45 (((cfg2.win 0).blk t).view.emb (ix2 (j 0) k)) = V c main_v45 (ix2 ((((cfg2.win 3).blk t).view.emb j) 0) k)
    refine congrArg (V c main_v45) ?_
    funext a; apply Fin.ext
    match a with
    | ⟨0, _⟩ => show win2_0.index t (0 : Fin 2) * 2000 + 1 * (j 0).val = win2_3.index t (0 : Fin 2) * 2000 + 1 * (j 0).val; omega
    | ⟨1, _⟩ => show win2_0.index t (1 : Fin 2) * 128 + 1 * k.val = k.val; omega
  · intro k
    show V c main_arg8 (((cfg2.win 1).blk t).view.emb (ix2 k (j 1))) = V c main_arg8 (ix2 k ((((cfg2.win 3).blk t).view.emb j) 1))
    refine congrArg (V c main_arg8) ?_
    funext a; apply Fin.ext
    match a with
    | ⟨0, _⟩ => show win2_1.index t (0 : Fin 2) * 128 + 1 * k.val = k.val; omega
    | ⟨1, _⟩ => show win2_1.index t (1 : Fin 2) * 64 + 1 * (j 1).val = win2_3.index t (1 : Fin 2) * 64 + 1 * (j 1).val; omega
  · show V c main_v46 (((cfg2.win 2).blk t).view.emb (ix2 0 (j 1))) = V c main_v46 (ix2 0 ((((cfg2.win 3).blk t).view.emb j) 1))
    refine congrArg (V c main_v46) ?_
    funext a; apply Fin.ext
    match a with
    | ⟨0, _⟩ => show win2_2.index t (0 : Fin 2) * 1 + 1 * 0 = 0; omega
    | ⟨1, _⟩ => show win2_2.index t (1 : Fin 2) * 64 + 1 * (j 1).val = win2_3.index t (1 : Fin 2) * 64 + 1 * (j 1).val; omega

/-- An index of the output array is in point `t`'s block iff each coordinate is in the block's range on its axis. -/
theorem mem_blk2 (t : Fin cfg2.N) (i : S100000x64.Idx) :
    i ∈ ((cfg2.win 3).blk t).view.set ↔ ∀ a : Fin 2, win2_3.index t a * S2000x64.size a ≤ (i a).val ∧ (i a).val < win2_3.index t a * S2000x64.size a + S2000x64.size a := by
  show i ∈ ((View.whole main_v47).slice (win2_3.rect t)).set ↔ _
  rw [View.set_slice_whole, Rect.mem_set_unit]
  exact Iff.rfl

/-- Every row is in some point's block: row `n` in the block of point `n / 2000`. -/
theorem cover2 (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hN : (i 0).val / 2000 < cfg2.N := by rw [show cfg2.N = 50 from N_2]; omega
  obtain ⟨e00, e01, e10, e11, e20, e21, e30, e31⟩ := idx2 ⟨(i 0).val / 2000, hN⟩
  refine ⟨⟨(i 0).val / 2000, hN⟩, flush2_3 _, ?_⟩
  rw [mem_blk2]
  intro a
  match a with
  | ⟨0, _⟩ => show win2_3.index ⟨(i 0).val / 2000, hN⟩ (0 : Fin 2) * 2000 ≤ (i 0).val ∧ (i 0).val < win2_3.index ⟨(i 0).val / 2000, hN⟩ (0 : Fin 2) * 2000 + 2000; rw [e30]; show (i 0).val / 2000 * 2000 ≤ _ ∧ _ < (i 0).val / 2000 * 2000 + 2000; omega
  | ⟨1, _⟩ => show win2_3.index ⟨(i 0).val / 2000, hN⟩ (1 : Fin 2) * 64 ≤ (i 1).val ∧ (i 1).val < win2_3.index ⟨(i 0).val / 2000, hN⟩ (1 : Fin 2) * 64 + 64; omega

/-- After the launch its output array is the read-out layer of the arrays it found. -/
theorem final2 (c : Dev nD) : (dat2 V c).arrAt 3 cfg2.N = G2 V c :=
  (dat2 V c).arrAt_eq_of_cover 3 (G2 V c) (fun t _ => flushed2 V c t) cover2

end Cert.KernelIdeal.Blocks

end
-- ==== Proof.RValue.lean ====
/-
  The reference, stage by stage, is the network's layers.

  The reference computes, twice, the mean of each node's neighbours' features (a gather along the edges' sources, a
  scatter-add at their targets, a division by the in-degree or by one), each time followed by a dense layer
  `max ((a · wl + b) + x · wr, 0)`, and ends with the logistic function of `h · w + b`.  The neighbour mean is
  never opened: it is one function `agg` of a feature array and the edge list, the same at both layers.  A dense
  layer of the reference adds the bias before the second product where `Sage.layer` adds it after: addition on the
  extended reals is commutative and associative, so the two agree with no condition on the entries.  The logistic
  function on the extended reals is by definition `1 / (1 + exp (-x))`, the reference's own spelling.
-/
import proofs.«144454_j34248069219261_1_alg».proof.Proof.Gen.ReferenceIdeal.Read
import proofs.«144454_j34248069219261_1_alg».proof.Proof.Spec

noncomputable section

open scoped BigOperators

namespace Cert.ReferenceIdeal.RefValue

open Cert.ReferenceIdeal Cert.ReferenceIdeal.Read Idealize.ShloMosaic Idealize.ShloMosaic.ValueIdx

/-- The mean of each node's neighbours' rows of `h` along the edges `e` (zero for a node with no incoming edge). -/
def agg (h : (⟨S100000x128, .f32⟩ : BufTy).Contents (Elt Ideal)) (e : (⟨S2x1600000, .i32⟩ : BufTy).Contents (Elt Ideal)) : S100000x128.Idx → EReal :=
  val_main_v22 (F := Ideal) h e

/-! ## The operand indices of the products and the bias, by coordinates -/

theorem lidx23 (i : S100000x128.Idx) (k : Fin 128) : lidx_main_v23 i k = ix2 (n0 := 100000) (i 0) k :=
  funext fun a => match a with | ⟨0, _⟩ => rfl | ⟨1, _⟩ => rfl
theorem ridx23 (i : S100000x128.Idx) (k : Fin 128) : ridx_main_v23 i k = ix2 (n1 := 128) k (i 1) :=
  funext fun a => match a with | ⟨0, _⟩ => rfl | ⟨1, _⟩ => rfl
theorem lidx27 (i : S100000x128.Idx) (k : Fin 128) : lidx_main_v27 i k = ix2 (n0 := 100000) (i 0) k :=
  funext fun a => match a with | ⟨0, _⟩ => rfl | ⟨1, _⟩ => rfl
theorem ridx27 (i : S100000x128.Idx) (k : Fin 128) : ridx_main_v27 i k = ix2 (n1 := 128) k (i 1) :=
  funext fun a => match a with | ⟨0, _⟩ => rfl | ⟨1, _⟩ => rfl
theorem lidx49 (i : S100000x128.Idx) (k : Fin 128) : lidx_main_v49 i k = ix2 (n0 := 100000) (i 0) k :=
  funext fun a => match a with | ⟨0, _⟩ => rfl | ⟨1, _⟩ => rfl
theorem ridx49 (i : S100000x128.Idx) (k : Fin 128) : ridx_main_v49 i k = ix2 (n1 := 128) k (i 1) :=
  funext fun a => match a with | ⟨0, _⟩ => rfl | ⟨1, _⟩ => rfl
theorem lidx53 (i : S100000x128.Idx) (k : Fin 128) : lidx_main_v53 i k = ix2 (n0 := 100000) (i 0) k :=
  funext fun a => match a with | ⟨0, _⟩ => rfl | ⟨1, _⟩ => rfl
theorem ridx53 (i : S100000x128.Idx) (k : Fin 128) : ridx_main_v53 i k = ix2 (n1 := 128) k (i 1) :=
  funext fun a => match a with | ⟨0, _⟩ => rfl | ⟨1, _⟩ => rfl
theorem lidx56 (i : S100000x64.Idx) (k : Fin 128) : lidx_main_v56 i k = ix2 (n0 := 100000) (i 0) k :=
  funext fun a => match a with | ⟨0, _⟩ => rfl | ⟨1, _⟩ => rfl
theorem ridx56 (i : S100000x64.Idx) (k : Fin 128) : ridx_main_v56 i k = ix2 (n1 := 64) k (i 1) :=
  funext fun a => match a with | ⟨0, _⟩ => rfl | ⟨1, _⟩ => rfl
theorem bidx25 (i : S100000x128.Idx) : idx_main_v24 (idx_main_v25 i) = ix1 (n := 128) (i 1) :=
  funext fun a => match a with | ⟨0, _⟩ => rfl
theorem bidx51 (i : S100000x128.Idx) : idx_main_v50 (idx_main_v51 i) = ix1 (n := 128) (i 1) :=
  funext fun a => match a with | ⟨0, _⟩ => rfl
theorem bidx58 (i : S100000x64.Idx) : idx_main_v57 (idx_main_v58 i) = ix1 (n := 64) (i 1) :=
  funext fun a => match a with | ⟨0, _⟩ => rfl

/-- The word of `1.0` is the real number one. -/
theorem ofBits_one : Ideal.ofBits .f32 0x3F800000#32 = 1 := by
  simp [Ideal.ofBits, Ideal.ieee, -EReal.coe_mul]; norm_num

/-! ## The stages -/

/-- The first hidden features are the layer of the neighbour means of the inputs and the inputs. -/
theorem hidden0 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v29 (F := Ideal) x0 x1 x2 x3 x4 = Sage.layer (R := 100000) (agg x0 x1) x0 x2 x4 (fun q => x3 (ix1 q)) := by
  funext i
  rw [val_main_v29_apply, val_main_v28_apply, val_main_v26_apply, val_main_v23_apply, val_main_v25_apply, val_main_v24_apply,
    val_main_v27_apply, val_main_call0_v0_apply, val_main_call0_cst_apply]
  simp only [Ideal.maximumf_def, Ideal.addf_def, Ideal.ofBits_def, Ideal.ofBits_zero_f32, lidx23, ridx23, lidx27, ridx27, bidx25]
  unfold Sage.layer Sage.layerAt agg
  exact congrArg₂ max (add_right_comm _ _ _) rfl

/-- The second neighbour mean is the same function, of the first hidden features. -/
theorem mean1 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v48 (F := Ideal) x0 x1 x2 x3 x4 = agg (val_main_v29 (F := Ideal) x0 x1 x2 x3 x4) x1 := rfl

/-- The second hidden features are the layer of the neighbour means of the first and the first. -/
theorem hidden1 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v55 (F := Ideal) x0 x1 x2 x3 x4 x5 x6 x7
      = Sage.layer (R := 100000) (val_main_v48 (F := Ideal) x0 x1 x2 x3 x4) (val_main_v29 (F := Ideal) x0 x1 x2 x3 x4) x5 x7 (fun q => x6 (ix1 q)) := by
  funext i
  rw [val_main_v55_apply, val_main_v54_apply, val_main_v52_apply, val_main_v49_apply, val_main_v51_apply, val_main_v50_apply,
    val_main_v53_apply, val_main_call1_v0_apply, val_main_call1_cst_apply]
  simp only [Ideal.maximumf_def, Ideal.addf_def, Ideal.ofBits_def, Ideal.ofBits_zero_f32, lidx49, ridx49, lidx53, ridx53, bidx51]
  unfold Sage.layer Sage.layerAt
  exact congrArg₂ max (add_right_comm _ _ _) rfl

/-- The result is the read-out layer of the second hidden features. -/
theorem readout (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x64, .f32⟩ : BufTy).Contents (Elt Ideal)) (x9 : (⟨S64, .f32⟩ : BufTy).Contents (Elt Ideal)) :
    val_main_v65 (F := Ideal) x0 x1 x2 x3 x4 x5 x6 x7 x8 x9
      = Sage.out (R := 100000) (val_main_v55 (F := Ideal) x0 x1 x2 x3 x4 x5 x6 x7) x8 (fun q => x9 (ix1 q)) := by
  funext i
  rw [val_main_v65_apply, val_main_v64_apply, val_main_cst_11_apply, val_main_v63_apply, val_main_v62_apply, val_main_cst_10_apply,
    val_main_v61_apply, val_main_v60_apply, val_main_v59_apply, val_main_v56_apply, val_main_v58_apply, val_main_v57_apply]
  simp only [Ideal.hostDivf_def, Ideal.addf_def, Ideal.hostUnary_exp_def, Ideal.hostNegf_def, Ideal.negf_def, Ideal.ofBits_def,
    ofBits_one, lidx56, ridx56, bidx58]
  unfold Sage.out Sage.outAt Ideal.logistic
  rfl

end Cert.ReferenceIdeal.RefValue

end
-- ==== Proof.KValue.lean ====
/-
  The idealized kernel's result array, as the network of the argument arrays.

  The buffers' contents are followed through the program boundary by boundary.  A stretch of array operations gives
  each array it computes as a term of the arrays before it (the neighbour mean, never opened, is the function `agg`
  of a feature array and the edge list; a bias reshaped to one row is read back entry by entry) and leaves the other
  arrays alone.  A launch puts in its output array the layer of the whole arrays it found (the blocks-to-arrays
  lemmas) and leaves the other arrays alone.  Composed: the first launch leaves the first hidden features, the
  second the second hidden features, the third the read-out layer of those.
-/
import proofs.«144454_j34248069219261_1_alg».proof.Proof.Gen.KernelIdeal.Frame
import proofs.«144454_j34248069219261_1_alg».proof.Proof.KBlocks
import proofs.«144454_j34248069219261_1_alg».proof.Proof.RValue
import Idealize.ShloMosaic.Lib.StableHlo.Run
import Idealize.ShloMosaic.Lib.Pipeline.Value
import Idealize.ShloMosaic.Lib.ValueIdx

set_option maxRecDepth 16384

noncomputable section

open scoped BigOperators

namespace Cert.KernelIdeal.KValue

open Cert.KernelIdeal Cert.KernelIdeal.Gen Idealize.ShloMosaic Idealize.ShloMosaic.TcCoe Idealize.ShloMosaic.ValueIdx Idealize.SL.Sem Idealize.ShloMosaic.StableHlo
open Cert.ReferenceIdeal.RefValue (agg)

variable (m : (ℓ : Loc nD τ sig) → Buf (Elt Ideal) ℓ) (ρ : Dev nD → PrngReg)

/-- A vector of 128 entries reshaped to one row reads, at `(0, q)`, its entry `q`. -/
theorem row_of_vec128 (b : S128.Idx → EReal) (h : S128.ShapeCasts S1x128) (q : Fin 128) :
    shapeCast S1x128 b h (ix2 0 q) = b (ix1 q) :=
  shapeCast_apply b h (ix2 0 q) (ix1 q) (by rw [Shape.rowMajor_val_one, Shape.rowMajor_val_two]; show q.val = 0 * 128 + q.val; omega)

/-- A vector of 64 entries reshaped to one row reads, at `(0, q)`, its entry `q`. -/
theorem row_of_vec64 (b : S64.Idx → EReal) (h : S64.ShapeCasts S1x64) (q : Fin 64) :
    shapeCast S1x64 b h (ix2 0 q) = b (ix1 q) :=
  shapeCast_apply b h (ix2 0 q) (ix1 q) (by rw [Shape.rowMajor_val_one, Shape.rowMajor_val_two]; show q.val = 0 * 64 + q.val; omega)

/-! ## After the first stretch of array operations

The stretch computes the neighbour means of the input features and reshapes the first bias to a row; it writes no
argument. -/

set_option maxHeartbeats 8000000 in
/-- The neighbour means of the input features. -/
theorem W1_v22 (c : Dev nD) : (W1 m ρ c (Proc.devRef .tc main_v22) : S100000x128.Idx → EReal)
    = agg (m ((c : Thread nD τ).loc main_arg0)) (m ((c : Thread nD τ).loc main_arg1)) := by
  show StableHlo.after hostOps0 (W0 m ρ c) (Proc.devRef .tc main_v22) = _
  after_results_simp <;> rfl

set_option maxHeartbeats 8000000 in
/-- The first bias as one row. -/
theorem W1_v23 (c : Dev nD) : (W1 m ρ c (Proc.devRef .tc main_v23) : S1x128.Idx → EReal)
    = shapeCast S1x128 (m ((c : Thread nD τ).loc main_arg3)) shapeCasts_S128_S1x128 := by
  show StableHlo.after hostOps0 (W0 m ρ c) (Proc.devRef .tc main_v23) = _
  after_results_simp <;> rfl

set_option maxHeartbeats 8000000 in
/-- The edges' sources. -/
theorem W1_v1 (c : Dev nD) : W1 m ρ c (Proc.devRef .tc main_v1)
    = shapeCast S1600000 (extractStridedSlice S1x1600000 ![0, 0] (m ((c : Thread nD τ).loc main_arg1)) slices_S2x1600000_S1x1600000_0_0) shapeCasts_S1x1600000_S1600000 := by
  show StableHlo.after hostOps0 (W0 m ρ c) (Proc.devRef .tc main_v1) = _
  after_results_simp <;> rfl

set_option maxHeartbeats 8000000 in
/-- The edges' targets. -/
theorem W1_v3 (c : Dev nD) : W1 m ρ c (Proc.devRef .tc main_v3)
    = shapeCast S1600000 (extractStridedSlice S1x1600000 ![1, 0] (m ((c : Thread nD τ).loc main_arg1)) slices_S2x1600000_S1x1600000_1_0) shapeCasts_S1x1600000_S1600000 := by
  show StableHlo.after hostOps0 (W0 m ρ c) (Proc.devRef .tc main_v3) = _
  after_results_simp <;> rfl

set_option maxHeartbeats 8000000 in
theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl

set_option maxHeartbeats 8000000 in
theorem W1_arg2 (c : Dev nD) : W1 m ρ c (Proc.devRef .tc main_arg2) = m ((c : Thread nD τ).loc main_arg2) := by
  show StableHlo.after hostOps0 (W0 m ρ c) (Proc.devRef .tc main_arg2) = _
  after_results_simp <;> rfl

set_option maxHeartbeats 8000000 in
theorem W1_arg4 (c : Dev nD) : W1 m ρ c (Proc.devRef .tc main_arg4) = m ((c : Thread nD τ).loc main_arg4) := by
  show StableHlo.after hostOps0 (W0 m ρ c) (Proc.devRef .tc main_arg4) = _
  after_results_simp <;> rfl

set_option maxHeartbeats 8000000 in
theorem W1_arg5 (c : Dev nD) : W1 m ρ c (Proc.devRef .tc main_arg5) = m ((c : Thread nD τ).loc main_arg5) := by
  show StableHlo.after hostOps0 (W0 m ρ c) (Proc.devRef .tc main_arg5) = _
  after_results_simp <;> rfl

set_option maxHeartbeats 8000000 in
theorem W1_arg6 (c : Dev nD) : W1 m ρ c (Proc.devRef .tc main_arg6) = m ((c : Thread nD τ).loc main_arg6) := by
  show StableHlo.after hostOps0 (W0 m ρ c) (Proc.devRef .tc main_arg6) = _
  after_results_simp <;> rfl

set_option maxHeartbeats 8000000 in
theorem W1_arg7 (c : Dev nD) : W1 m ρ c (Proc.devRef .tc main_arg7) = m ((c : Thread nD τ).loc main_arg7) := by
  show StableHlo.after hostOps0 (W0 m ρ c) (Proc.devRef .tc main_arg7) = _
  after_results_simp <;> rfl

set_option maxHeartbeats 8000000 in
theorem W1_arg8 (c : Dev nD) : W1 m ρ c (Proc.devRef .tc main_arg8) = m ((c : Thread nD τ).loc main_arg8) := by
  show StableHlo.after hostOps0 (W0 m ρ c) (Proc.devRef .tc main_arg8) = _
  after_results_simp <;> rfl

set_option maxHeartbeats 8000000 in
theorem W1_arg9 (c : Dev nD) : W1 m ρ c (Proc.devRef .tc main_arg9) = m ((c : Thread nD τ).loc main_arg9) := by
  show StableHlo.after hostOps0 (W0 m ρ c) (Proc.devRef .tc main_arg9) = _
  after_results_simp <;> rfl

/-- The first launch's layer: the first hidden features. -/
def hidden0 (c : Dev nD) : S100000x128.Idx → EReal :=
  Sage.layer (R := 100000) (agg (m ((c : Thread nD τ).loc main_arg0)) (m ((c : Thread nD τ).loc main_arg1))) (m ((c : Thread nD τ).loc main_arg0)) (m ((c : Thread nD τ).loc main_arg2)) (m ((c : Thread nD τ).loc main_arg4))
    (fun q => m ((c : Thread nD τ).loc main_arg3) (ix1 q))

/-- The layer of the arrays the first launch finds is the first hidden features. -/
theorem G0_eq (c : Dev nD) : Blocks.G0 (V1 m ρ) c = hidden0 m c := by
  unfold Blocks.G0 hidden0
  show Sage.layer (R := 100000) (W1 m ρ c (Proc.devRef .tc main_v22)) (W1 m ρ c (Proc.devRef .tc main_arg0)) (W1 m ρ c (Proc.devRef .tc main_arg2))
    (W1 m ρ c (Proc.devRef .tc main_arg4)) (fun q => W1 m ρ c (Proc.devRef .tc main_v23) (ix2 0 q)) = _
  simp only [W1_v22 m ρ c, W1_arg0 m ρ c, W1_arg2 m ρ c, W1_arg4 m ρ c, W1_v23 m ρ c]
  exact congrArg (Sage.layer _ _ _ _) (funext fun q => row_of_vec128 _ _ q)

/-! ## After the first launch

Its output array holds the first hidden features; every other array is as it was. -/

theorem W2_v24 (c : Dev nD) : (W2 m ρ c (Proc.devRef .tc main_v24) : S100000x128.Idx → EReal) = hidden0 m c :=
  (W2_arr m ρ c 5).trans ((Blocks.final0 (V1 m ρ) c).trans (G0_eq m ρ c))

theorem W2_v1 (c : Dev nD) : W2 m ρ c (Proc.devRef .tc main_v1)
    = shapeCast S1600000 (extractStridedSlice S1x1600000 ![0, 0] (m ((c : Thread nD τ).loc main_arg1)) slices_S2x1600000_S1x1600000_0_0) shapeCasts_S1x1600000_S1600000 :=
  (W2_of_ne m ρ c main_v1 (by decide)).trans (W1_v1 m ρ c)

theorem W2_v3 (c : Dev nD) : W2 m ρ c (Proc.devRef .tc main_v3)
    = shapeCast S1600000 (extractStridedSlice S1x1600000 ![1, 0] (m ((c : Thread nD τ).loc main_arg1)) slices_S2x1600000_S1x1600000_1_0) shapeCasts_S1x1600000_S1600000 :=
  (W2_of_ne m ρ c main_v3 (by decide)).trans (W1_v3 m ρ c)

theorem W2_arg5 (c : Dev nD) : W2 m ρ c (Proc.devRef .tc main_arg5) = m ((c : Thread nD τ).loc main_arg5) :=
  (W2_of_ne m ρ c main_arg5 (by decide)).trans (W1_arg5 m ρ c)

theorem W2_arg6 (c : Dev nD) : W2 m ρ c (Proc.devRef .tc main_arg6) = m ((c : Thread nD τ).loc main_arg6) :=
  (W2_of_ne m ρ c main_arg6 (by decide)).trans (W1_arg6 m ρ c)

theorem W2_arg7 (c : Dev nD) : W2 m ρ c (Proc.devRef .tc main_arg7) = m ((c : Thread nD τ).loc main_arg7) :=
  (W2_of_ne m ρ c main_arg7 (by decide)).trans (W1_arg7 m ρ c)

theorem W2_arg8 (c : Dev nD) : W2 m ρ c (Proc.devRef .tc main_arg8) = m ((c : Thread nD τ).loc main_arg8) :=
  (W2_of_ne m ρ c main_arg8 (by decide)).trans (W1_arg8 m ρ c)

theorem W2_arg9 (c : Dev nD) : W2 m ρ c (Proc.devRef .tc main_arg9) = m ((c : Thread nD τ).loc main_arg9) :=
  (W2_of_ne m ρ c main_arg9 (by decide)).trans (W1_arg9 m ρ c)

/-! ## After the second stretch

It computes the neighbour means of the first hidden features, along the same edges, and reshapes the second bias. -/

set_option maxHeartbeats 8000000 in
theorem W3_v43 (c : Dev nD) : (W3 m ρ c (Proc.devRef .tc main_v43) : S100000x128.Idx → EReal)
    = agg (hidden0 m c) (m ((c : Thread nD τ).loc main_arg1)) := by
  show StableHlo.after hostOps1 (W2 m ρ c) (Proc.devRef .tc main_v43) = _
  after_results_simp
  rw [W2_v1 m ρ c, W2_v3 m ρ c, W2_v24 m ρ c]
  rfl

set_option maxHeartbeats 8000000 in
theorem W3_v24 (c : Dev nD) : (W3 m ρ c (Proc.devRef .tc main_v24) : S100000x128.Idx → EReal) = hidden0 m c := by
  show StableHlo.after hostOps1 (W2 m ρ c) (Proc.devRef .tc main_v24) = _
  after_results_simp
  exact W2_v24 m ρ c

set_option maxHeartbeats 8000000 in
theorem W3_v44 (c : Dev nD) : (W3 m ρ c (Proc.devRef .tc main_v44) : S1x128.Idx → EReal)
    = shapeCast S1x128 (m ((c : Thread nD τ).loc main_arg6)) shapeCasts_S128_S1x128 := by
  show StableHlo.after hostOps1 (W2 m ρ c) (Proc.devRef .tc main_v44) = _
  after_results_simp
  rw [W2_arg6 m ρ c]
  rfl

set_option maxHeartbeats 8000000 in
theorem W3_arg5 (c : Dev nD) : W3 m ρ c (Proc.devRef .tc main_arg5) = m ((c : Thread nD τ).loc main_arg5) := by
  show StableHlo.after hostOps1 (W2 m ρ c) (Proc.devRef .tc main_arg5) = _
  after_results_simp
  exact W2_arg5 m ρ c

set_option maxHeartbeats 8000000 in
theorem W3_arg7 (c : Dev nD) : W3 m ρ c (Proc.devRef .tc main_arg7) = m ((c : Thread nD τ).loc main_arg7) := by
  show StableHlo.after hostOps1 (W2 m ρ c) (Proc.devRef .tc main_arg7) = _
  after_results_simp
  exact W2_arg7 m ρ c

set_option maxHeartbeats 8000000 in
theorem W3_arg8 (c : Dev nD) : W3 m ρ c (Proc.devRef .tc main_arg8) = m ((c : Thread nD τ).loc main_arg8) := by
  show StableHlo.after hostOps1 (W2 m ρ c) (Proc.devRef .tc main_arg8) = _
  after_results_simp
  exact W2_arg8 m ρ c

set_option maxHeartbeats 8000000 in
theorem W3_arg9 (c : Dev nD) : W3 m ρ c (Proc.devRef .tc main_arg9) = m ((c : Thread nD τ).loc main_arg9) := by
  show StableHlo.after hostOps1 (W2 m ρ c) (Proc.devRef .tc main_arg9) = _
  after_results_simp
  exact W2_arg9 m ρ c

/-- The second launch's layer: the second hidden features. -/
def hidden1 (c : Dev nD) : S100000x128.Idx → EReal :=
  Sage.layer (R := 100000) (agg (hidden0 m c) (m ((c : Thread nD τ).loc main_arg1))) (hidden0 m c) (m ((c : Thread nD τ).loc main_arg5)) (m ((c : Thread nD τ).loc main_arg7))
    (fun q => m ((c : Thread nD τ).loc main_arg6) (ix1 q))

theorem G1_eq (c : Dev nD) : Blocks.G1 (V3 m ρ) c = hidden1 m c := by
  unfold Blocks.G1 hidden1
  show Sage.layer (R := 100000) (W3 m ρ c (Proc.devRef .tc main_v43)) (W3 m ρ c (Proc.devRef .tc main_v24)) (W3 m ρ c (Proc.devRef .tc main_arg5))
    (W3 m ρ c (Proc.devRef .tc main_arg7)) (fun q => W3 m ρ c (Proc.devRef .tc main_v44) (ix2 0 q)) = _
  simp only [W3_v43 m ρ c, W3_v24 m ρ c, W3_arg5 m ρ c, W3_arg7 m ρ c, W3_v44 m ρ c]
  exact congrArg (Sage.layer _ _ _ _) (funext fun q => row_of_vec128 _ _ q)

/-! ## After the second launch -/

theorem W4_v45 (c : Dev nD) : (W4 m ρ c (Proc.devRef .tc main_v45) : S100000x128.Idx → EReal) = hidden1 m c :=
  (W4_arr m ρ c 5).trans ((Blocks.final1 (V3 m ρ) c).trans (G1_eq m ρ c))

theorem W4_arg8 (c : Dev nD) : W4 m ρ c (Proc.devRef .tc main_arg8) = m ((c : Thread nD τ).loc main_arg8) :=
  (W4_of_ne m ρ c main_arg8 (by decide)).trans (W3_arg8 m ρ c)

theorem W4_arg9 (c : Dev nD) : W4 m ρ c (Proc.devRef .tc main_arg9) = m ((c : Thread nD τ).loc main_arg9) :=
  (W4_of_ne m ρ c main_arg9 (by decide)).trans (W3_arg9 m ρ c)

/-! ## After the third stretch: the last bias reshaped to a row -/

theorem W5_v45 (c : Dev nD) : (W5 m ρ c (Proc.devRef .tc main_v45) : S100000x128.Idx → EReal) = hidden1 m c := by
  show StableHlo.after hostOps2 (W4 m ρ c) (Proc.devRef .tc main_v45) = _
  after_results_simp
  exact W4_v45 m ρ c

theorem W5_v46 (c : Dev nD) : (W5 m ρ c (Proc.devRef .tc main_v46) : S1x64.Idx → EReal)
    = shapeCast S1x64 (m ((c : Thread nD τ).loc main_arg9)) shapeCasts_S64_S1x64 := by
  show StableHlo.after hostOps2 (W4 m ρ c) (Proc.devRef .tc main_v46) = _
  after_results_simp
  rw [W4_arg9 m ρ c]
  rfl

theorem W5_arg8 (c : Dev nD) : W5 m ρ c (Proc.devRef .tc main_arg8) = m ((c : Thread nD τ).loc main_arg8) := by
  show StableHlo.after hostOps2 (W4 m ρ c) (Proc.devRef .tc main_arg8) = _
  after_results_simp
  exact W4_arg8 m ρ c

/-- The network's result: the read-out layer of the second hidden features. -/
def result (c : Dev nD) : S100000x64.Idx → EReal :=
  Sage.out (R := 100000) (hidden1 m c) (m ((c : Thread nD τ).loc main_arg8)) (fun q => m ((c : Thread nD τ).loc main_arg9) (ix1 q))

theorem G2_eq (c : Dev nD) : Blocks.G2 (V5 m ρ) c = result m c := by
  unfold Blocks.G2 result
  show Sage.out (R := 100000) (W5 m ρ c (Proc.devRef .tc main_v45)) (W5 m ρ c (Proc.devRef .tc main_arg8))
    (fun q => W5 m ρ c (Proc.devRef .tc main_v46) (ix2 0 q)) = _
  simp only [W5_v45 m ρ c, W5_arg8 m ρ c, W5_v46 m ρ c]
  exact congrArg (Sage.out _ _) (funext fun q => row_of_vec64 _ _ q)

/-! ## After the third launch: the result array -/

/-- The result array ends holding the network's result. -/
theorem W6_v47 (c : Dev nD) : (W6 m ρ c (Proc.devRef .tc main_v47) : S100000x64.Idx → EReal) = result m c :=
  (W6_arr m ρ c 3).trans ((Blocks.final2 (V5 m ρ) c).trans (G2_eq m ρ c))

end Cert.KernelIdeal.KValue

end
-- ==== Proof.lean ====
/-
  A two-layer message-passing network with a logistic read-out, as three grid launches among array operations,
  against the same network as array operations alone: equal results on the extended reals.

  Both programs compute, for node features `x` (100000 × 128) and an edge list `e`,
      h0  = max ((agg x e · wl0 + x · wr0) + b0, 0),
      h1  = max ((agg h0 e · wl1 + h0 · wr1) + b1, 0),
      out = logistic (h1 · wo + bo),
  where `agg h e` is the mean of each node's neighbours' rows of `h` along the edges.  The neighbour mean is the
  same chain of array operations in both programs and is never opened.  The launches compute each dense layer 2000
  rows at a time, with the matrix products fed through a narrower float format — the identity on the extended reals —
  and the bias added after both products, where the reference adds it between them: addition on the extended reals
  is commutative and associative without any condition, so the finiteness of the inputs is not used.  The logistic
  function on the extended reals is `1 / (1 + exp (-x))`, which is how the reference spells it.

  The word-level program was idealized without any rewrite, so that it is the idealization's original holds trivially;
  the three programs' runs terminate without a fault and leave their arguments unchanged.
-/
import proofs.«144454_j34248069219261_1_alg».proof.Defs
import proofs.«144454_j34248069219261_1_alg».proof.Proof.Gen.Kernel
import proofs.«144454_j34248069219261_1_alg».proof.Proof.Gen.Kernel.Skeleton
import proofs.«144454_j34248069219261_1_alg».proof.Proof.Gen.Kernel.Launch
import proofs.«144454_j34248069219261_1_alg».proof.Proof.Gen.Kernel.Points
import proofs.«144454_j34248069219261_1_alg».proof.Proof.Gen.Kernel.Frame
import proofs.«144454_j34248069219261_1_alg».proof.Proof.Gen.KernelIdeal
import proofs.«144454_j34248069219261_1_alg».proof.Proof.Gen.KernelIdeal.Skeleton
import proofs.«144454_j34248069219261_1_alg».proof.Proof.Gen.KernelIdeal.Launch
import proofs.«144454_j34248069219261_1_alg».proof.Proof.Gen.KernelIdeal.Points
import proofs.«144454_j34248069219261_1_alg».proof.Proof.Gen.KernelIdeal.Frame
import proofs.«144454_j34248069219261_1_alg».proof.Proof.Gen.ReferenceIdeal
import proofs.«144454_j34248069219261_1_alg».proof.Proof.Gen.ReferenceIdeal.Run
import proofs.«144454_j34248069219261_1_alg».proof.Proof.Gen.ReferenceIdeal.Read
import proofs.«144454_j34248069219261_1_alg».proof.Proof.Gen.Pre_finite_inputs
import proofs.«144454_j34248069219261_1_alg».proof.Proof.KRun
import proofs.«144454_j34248069219261_1_alg».proof.Proof.KValue
import proofs.«144454_j34248069219261_1_alg».proof.Proof.RValue
import Idealize.ShloMosaic.Adequacy
import Idealize.ShloMosaic.Init

noncomputable section

namespace Cert.Proof

open Idealize.ShloMosaic Idealize.ShloMosaic.TcCoe Idealize.SL.Sem

/-- The word-level program terminates without a fault and leaves its arguments unchanged. -/
theorem frame_k [Cert.Kernel.Facts] [Cert.Pre_finite_inputs.Facts] : Cert.frame_Kernel :=
  fun m ρ _ => Cert.Kernel.Gen.frame m ρ

/-- So does its idealization. -/
theorem frame_ki [Cert.KernelIdeal.Facts] [Cert.Pre_finite_inputs.Facts] : Cert.frame_KernelIdeal :=
  fun m ρ _ => Cert.KernelIdeal.Gen.frame m ρ

/-- So does the reference: its run, with the result forgotten. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the network's result of those arguments: the
    launches' by following the buffers through the program, the reference's stage by stage. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.KValue.result m c, ?_, ?_⟩
  · exact (θ_run Cert.KernelIdeal.defs _ _).mono
      (fun r h c => ⟨(h c).1.trans (Cert.KernelIdeal.KValue.W6_v47 m ρ c), (h c).2⟩) (Cert.KernelIdeal.Run.run_out m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9⟩ := hagree c
    rw [Cert.ReferenceIdeal.Read.val_main_v65_eq, Cert.ReferenceIdeal.RefValue.readout, Cert.ReferenceIdeal.RefValue.hidden1,
      Cert.ReferenceIdeal.RefValue.mean1, Cert.ReferenceIdeal.RefValue.hidden0, a0, a1, a2, a3, a4, a5, a6, a7, a8, a9]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
